-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x1024 .f32) (main_arg1 : FVec F S1024x1024 .f32) (main_arg2 : FVec F S1024 .f32) (main_arg3 : FVec F S1024x1024 .f32) (main_arg4 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x1024_S512x1024_0_0 : ∀ a, (![0, 0] : Fin 2 → Nat) a + S512x1024.size a ≤ S1024x1024.size a
  h_S512x1024 : 0 < S512x1024.numel
  broadcasts_S1x1024_S512x1024 : S1x1024.Broadcasts S512x1024
  inb_S1024x1024_S512x1024_512_0 : ∀ a, (![512, 0] : Fin 2 → Nat) a + S512x1024.size a ≤ S1024x1024.size a
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x1024.size a
  hwx0_5 : ∀ i : grid0.Coords, EltTy.bits .f32 = 32 ∨ (Rect.block (s := S8192x1024) S1024x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1024x8192 : Shape := ⟨2, ![1024, 8192]⟩
abbrev S1024x1 : Shape := ⟨2, ![1024, 1]⟩
abbrev S1024x2048 : Shape := ⟨2, ![1024, 2048]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x8192, .f32⟩
  | .hbm, ⟨6, _⟩ => ⟨S1024x1, .f32⟩
  | .hbm, ⟨7, _⟩ => ⟨S1024x1, .f32⟩
  | .hbm, ⟨8, _⟩ => ⟨S1024x8192, .f32⟩
  | .hbm, ⟨9, _⟩ => ⟨S8192x1024, .f32⟩
  | .local _ .vmem, ⟨0, _⟩ => ⟨S1024x2048, .f32⟩
  | .local _ .vmem, ⟨1, _⟩ => ⟨S1024x2048, .f32⟩
  | .local _ .vmem, ⟨2, _⟩ => ⟨S1024x1024, .f32⟩
  | .local _ .vmem, ⟨3, _⟩ => ⟨S1024x1, .f32⟩
  | .local _ .vmem, ⟨4, _⟩ => ⟨S1024x1024, .f32⟩
  | .local _ .vmem, ⟨5, _⟩ => ⟨S1024x1, .f32⟩
  | .local _ .vmem, ⟨6, _⟩ => ⟨S1024x2048, .f32⟩
  | .local _ .vmem, ⟨7, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S8192x1024_S1024x8192_1_0 : S8192x1024.Transposes [1, 0] S1024x8192
  shapeCasts_S1024_S1024x1 : S1024.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x2048 : S1024x1.Broadcasts S1024x2048
  transposes_S1024x8192_S8192x1024_1_0 : S1024x8192.Transposes [1, 0] S8192x1024
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x8192.size a
  hwx0_0 : ∀ i : grid0.Coords, EltTy.bits .f32 = 32 ∨ (Rect.block (s := S1024x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S1024x1.size a
  hwx0_2 : ∀ i : grid0.Coords, EltTy.bits .f32 = 32 ∨ (Rect.block (s := S1024x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .f32 = 32 ∨ (Rect.block (s := S1024x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x8192.size a
  hwx0_5 : ∀ i : grid0.Coords, EltTy.bits .f32 = 32 ∨ (Rect.block (s := S1024x8192) S1024x2048.size (cc0_transform_5 i) (hinb0_5 i)).WholeWords (EltTy.packing .f32)

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.MlpSpec.lean ====
/-
  The two-layer perceptron on the extended reals, one output entry at a time.

  For a batch `X` of rows of `K` features, first-layer weights `W1` (one row of `K` weights per hidden unit) with bias `b1`,
  and second-layer weights `W2` (one row of `H` weights per output) with bias `b2`:
      hidden r h = max (∑ f, X (r, f) · W1 (h, f) + b1 h) 0
      out r o    = ∑ h, hidden r h · W2 (o, h) + b2 o.
  An output entry of row `r` reads `X` on that row alone (`out_congr_row`), so the perceptron of a block of rows is the block of
  the perceptron of the batch. Written with the batch as the columns of the transposed activations and every product's
  factors in the other order it is the same entry (`outT_eq_out`): multiplication of extended reals commutes, and the two
  sums run over the same index sets in the same order.
-/
import Idealize.ShloMosaic.PureOps.Ideal
import Idealize.ShloMosaic.Lib.ValueIdx

noncomputable section

namespace Cert.Mlp

open Idealize.ShloMosaic Idealize.ShloMosaic.ValueIdx
open scoped BigOperators

variable {B K H O : ℕ}

/-- Hidden unit `h` of batch row `r`: the rectified affine form of the row's features. -/
def hidden (X : (⟨2, ![B, K]⟩ : Shape).Idx → EReal) (W1 : (⟨2, ![H, K]⟩ : Shape).Idx → EReal) (b1 : Fin H → EReal)
    (r : Fin B) (h : Fin H) : EReal :=
  max ((∑ f : Fin K, X (ix2 r f) * W1 (ix2 h f)) + b1 h) 0

/-- Output `o` of batch row `r`: the affine form of the row's hidden units. -/
def out (X : (⟨2, ![B, K]⟩ : Shape).Idx → EReal) (W1 : (⟨2, ![H, K]⟩ : Shape).Idx → EReal) (b1 : Fin H → EReal)
    (W2 : (⟨2, ![O, H]⟩ : Shape).Idx → EReal) (b2 : Fin O → EReal) (r : Fin B) (o : Fin O) : EReal :=
  (∑ h : Fin H, hidden X W1 b1 r h * W2 (ix2 o h)) + b2 o

/-- An output entry depends on the batch through its own row only. -/
theorem out_congr_row {B' : ℕ} (X : (⟨2, ![B, K]⟩ : Shape).Idx → EReal) (X' : (⟨2, ![B', K]⟩ : Shape).Idx → EReal)
    (W1 : (⟨2, ![H, K]⟩ : Shape).Idx → EReal) (b1 : Fin H → EReal) (W2 : (⟨2, ![O, H]⟩ : Shape).Idx → EReal)
    (b2 : Fin O → EReal) (r : Fin B) (r' : Fin B') (hX : ∀ f : Fin K, X (ix2 r f) = X' (ix2 r' f)) (o : Fin O) :
    out X W1 b1 W2 b2 r o = out X' W1 b1 W2 b2 r' o := by
  unfold out hidden
  refine congrArg (· + b2 o) (Finset.sum_congr rfl fun h _ => ?_)
  refine congrArg (fun z => max (z + b1 h) 0 * W2 (ix2 o h)) (Finset.sum_congr rfl fun f _ => ?_)
  rw [hX f]

/-- The same entry from operands that agree where the entry reads them. -/
theorem out_congr {B' : ℕ} (X : (⟨2, ![B, K]⟩ : Shape).Idx → EReal) (X' : (⟨2, ![B', K]⟩ : Shape).Idx → EReal)
    (W1 W1' : (⟨2, ![H, K]⟩ : Shape).Idx → EReal) (b1 b1' : Fin H → EReal) (W2 W2' : (⟨2, ![O, H]⟩ : Shape).Idx → EReal)
    (b2 b2' : Fin O → EReal) (r : Fin B) (r' : Fin B') (o o' : Fin O)
    (hX : ∀ f : Fin K, X (ix2 r f) = X' (ix2 r' f)) (hW1 : W1 = W1') (hb1 : b1 = b1') (hW2 : W2 = W2') (hb2 : b2 = b2')
    (ho : o = o') : out X W1 b1 W2 b2 r o = out X' W1' b1' W2' b2' r' o' := by
  subst hW1 hb1 hW2 hb2 ho
  exact out_congr_row X X' W1 b1 W2 b2 r r' hX o

/-- The whole result: entry `(r, o)` of the array is output `o` of batch row `r`, the biases given as vectors. -/
def net (X : (⟨2, ![B, K]⟩ : Shape).Idx → EReal) (W1 : (⟨2, ![H, K]⟩ : Shape).Idx → EReal)
    (b1 : (⟨1, ![H]⟩ : Shape).Idx → EReal) (W2 : (⟨2, ![O, H]⟩ : Shape).Idx → EReal)
    (b2 : (⟨1, ![O]⟩ : Shape).Idx → EReal) : (⟨2, ![B, O]⟩ : Shape).Idx → EReal :=
  fun i => out X W1 (fun h => b1 (ix1 h)) W2 (fun o => b2 (ix1 o)) (i 0) (i 1)

/-- The same entry with the batch along the columns of the transposed activations `XT` and the weights as the left
    factors: `∑ h, W2 (o, h) · max (∑ f, W1 (h, f) · XT (f, r) + b1 h) 0 + b2 o`. -/
def outT (XT : (⟨2, ![K, B]⟩ : Shape).Idx → EReal) (W1 : (⟨2, ![H, K]⟩ : Shape).Idx → EReal) (b1 : Fin H → EReal)
    (W2 : (⟨2, ![O, H]⟩ : Shape).Idx → EReal) (b2 : Fin O → EReal) (o : Fin O) (r : Fin B) : EReal :=
  (∑ h : Fin H, W2 (ix2 o h) * max ((∑ f : Fin K, W1 (ix2 h f) * XT (ix2 f r)) + b1 h) 0) + b2 o

/-- The transposed form from operands that agree where the entry reads them. -/
theorem outT_congr {B' : ℕ} (XT : (⟨2, ![K, B]⟩ : Shape).Idx → EReal) (XT' : (⟨2, ![K, B']⟩ : Shape).Idx → EReal)
    (W1 W1' : (⟨2, ![H, K]⟩ : Shape).Idx → EReal) (b1 b1' : Fin H → EReal) (W2 W2' : (⟨2, ![O, H]⟩ : Shape).Idx → EReal)
    (b2 b2' : Fin O → EReal) (o o' : Fin O) (r : Fin B) (r' : Fin B')
    (hX : ∀ f : Fin K, XT (ix2 f r) = XT' (ix2 f r')) (hW1 : W1 = W1') (hb1 : b1 = b1') (hW2 : W2 = W2') (hb2 : b2 = b2')
    (ho : o = o') : outT XT W1 b1 W2 b2 o r = outT XT' W1' b1' W2' b2' o' r' := by
  subst hW1 hb1 hW2 hb2 ho
  unfold outT
  refine congrArg (· + b2 o) (Finset.sum_congr rfl fun h _ => ?_)
  refine congrArg (fun z => W2 (ix2 o h) * max (z + b1 h) 0) (Finset.sum_congr rfl fun f _ => ?_)
  rw [hX f]

/-- Where column `r` of `XT` is row `r'` of `X`, the transposed form is the perceptron's entry: commute every product. -/
theorem outT_eq_out {B' : ℕ} (XT : (⟨2, ![K, B]⟩ : Shape).Idx → EReal) (X : (⟨2, ![B', K]⟩ : Shape).Idx → EReal)
    (W1 : (⟨2, ![H, K]⟩ : Shape).Idx → EReal) (b1 : Fin H → EReal) (W2 : (⟨2, ![O, H]⟩ : Shape).Idx → EReal)
    (b2 : Fin O → EReal) (r : Fin B) (r' : Fin B') (hX : ∀ f : Fin K, XT (ix2 f r) = X (ix2 r' f)) (o : Fin O) :
    outT XT W1 b1 W2 b2 o r = out X W1 b1 W2 b2 r' o := by
  unfold outT out hidden
  refine congrArg (· + b2 o) (Finset.sum_congr rfl fun h _ => ?_)
  rw [mul_comm]
  refine congrArg (fun z => max (z + b1 h) 0 * W2 (ix2 o h)) (Finset.sum_congr rfl fun f _ => ?_)
  rw [hX f, mul_comm]

end Cert.Mlp

end
-- ==== Proof.MlpLayers.lean ====
/-
  The perceptron's two layers as vector operations, read at an index.

  Rows form: the activations are the rows of `x`; a layer is the product of rows with the rows of its weight matrix into a
  zero accumulator, plus the bias as one row broadcast down the rows; the hidden layer is rectified against a zero splat.
  At `(p, q)` the two layers are `Mlp.out` of row `p`.
  Columns form: the activations are the columns of `xT`; a layer is the plain product of the weight matrix with them, plus
  the bias as one column broadcast along the columns. At `(o, r)` the two layers are `Mlp.outT` of column `r`.
  A cast of a vector to its own shape is the identity and drops out.
-/
import Idealize.ShloMosaic.PureOps.Ideal.Laws
import Idealize.ShloMosaic.Lib.ValueIdx
import Idealize.ShloMosaic.Lib.ValueLayout
import Idealize.ShloMosaic.Lib.Pipeline.Value
import proofs.«117204_g2000403444849452_pallasbulk_686_14_alg».proof.Proof.LibRowsDot
import proofs.«117204_g2000403444849452_pallasbulk_686_14_alg».proof.Proof.LibMatDot
import proofs.«117204_g2000403444849452_pallasbulk_686_14_alg».proof.Proof.LibColumn
import proofs.«117204_g2000403444849452_pallasbulk_686_14_alg».proof.Proof.MlpSpec

noncomputable section

namespace Cert.Mlp

open Idealize.ShloMosaic Idealize.ShloMosaic.ValueIdx Cert.Lib
open scoped BigOperators

/-! ## Rows form -/

/-- One affine layer at `(p, q)`: row `p` of the activations against row `q` of the weights, plus the bias's entry `q`. -/
theorem affine_rows_apply {a K b : ℕ} (wf : DotDims.WF ⟨2, ![a, K]⟩ ⟨2, ![b, K]⟩ ⟨2, ![a, b]⟩ [1] [1] [0] [0] [] [])
    (l : FVec Ideal ⟨2, ![a, K]⟩ .f32) (w : FVec Ideal ⟨2, ![b, K]⟩ .f32) (bias : FVec Ideal ⟨2, ![1, b]⟩ .f32)
    (hs : (⟨2, ![1, b]⟩ : Shape).ShapeCasts ⟨2, ![1, b]⟩) (hb : (⟨2, ![1, b]⟩ : Shape).Broadcasts ⟨2, ![a, b]⟩)
    (p : Fin a) (q : Fin b) :
    addf (matmul (rowsDot wf) none l w (constant (F := Ideal) ⟨2, ![a, b]⟩ .f32 0x00000000#32))
        (broadcastTo ⟨2, ![a, b]⟩ (shapeCast ⟨2, ![1, b]⟩ bias hs) hb) (ix2 p q)
      = (∑ k : Fin K, l (ix2 p k) * w (ix2 q k)) + bias (ix2 (0 : Fin 1) q) := by
  rw [addf_apply, shapeCast_self, broadcastTo_1b_ab_apply]
  exact congrArg (· + bias (ix2 (0 : Fin 1) q)) (matmul_rows_zero_apply wf none l w p q)

/-- The rectified layer at `(p, q)`. -/
theorem relu_rows_apply {a K b : ℕ} (wf : DotDims.WF ⟨2, ![a, K]⟩ ⟨2, ![b, K]⟩ ⟨2, ![a, b]⟩ [1] [1] [0] [0] [] [])
    (l : FVec Ideal ⟨2, ![a, K]⟩ .f32) (w : FVec Ideal ⟨2, ![b, K]⟩ .f32) (bias : FVec Ideal ⟨2, ![1, b]⟩ .f32)
    (hs : (⟨2, ![1, b]⟩ : Shape).ShapeCasts ⟨2, ![1, b]⟩) (hb : (⟨2, ![1, b]⟩ : Shape).Broadcasts ⟨2, ![a, b]⟩)
    (p : Fin a) (q : Fin b) :
    maximumf (addf (matmul (rowsDot wf) none l w (constant (F := Ideal) ⟨2, ![a, b]⟩ .f32 0x00000000#32))
          (broadcastTo ⟨2, ![a, b]⟩ (shapeCast ⟨2, ![1, b]⟩ bias hs) hb))
        (broadcast ⟨2, ![a, b]⟩ (Scalar.ofBits (F := Ideal) .f32 0x00000000#32)) (ix2 p q)
      = max ((∑ k : Fin K, l (ix2 p k) * w (ix2 q k)) + bias (ix2 (0 : Fin 1) q)) 0 := by
  rw [maximumf_apply, affine_rows_apply]
  exact congrArg (max _) Ideal.ofBits_zero_f32

/-- Both layers at `(p, q)`: the perceptron's output `q` of row `p`. -/
theorem mlp_rows_apply {a K H O : ℕ}
    (wf1 : DotDims.WF ⟨2, ![a, K]⟩ ⟨2, ![H, K]⟩ ⟨2, ![a, H]⟩ [1] [1] [0] [0] [] [])
    (wf2 : DotDims.WF ⟨2, ![a, H]⟩ ⟨2, ![O, H]⟩ ⟨2, ![a, O]⟩ [1] [1] [0] [0] [] [])
    (x : FVec Ideal ⟨2, ![a, K]⟩ .f32) (w1 : FVec Ideal ⟨2, ![H, K]⟩ .f32) (b1 : FVec Ideal ⟨2, ![1, H]⟩ .f32)
    (w2 : FVec Ideal ⟨2, ![O, H]⟩ .f32) (b2 : FVec Ideal ⟨2, ![1, O]⟩ .f32)
    (hs1 : (⟨2, ![1, H]⟩ : Shape).ShapeCasts ⟨2, ![1, H]⟩) (hb1 : (⟨2, ![1, H]⟩ : Shape).Broadcasts ⟨2, ![a, H]⟩)
    (hs2 : (⟨2, ![1, O]⟩ : Shape).ShapeCasts ⟨2, ![1, O]⟩) (hb2 : (⟨2, ![1, O]⟩ : Shape).Broadcasts ⟨2, ![a, O]⟩)
    (p : Fin a) (q : Fin O) :
    addf (matmul (rowsDot wf2) none
          (maximumf (addf (matmul (rowsDot wf1) none x w1 (constant (F := Ideal) ⟨2, ![a, H]⟩ .f32 0x00000000#32))
              (broadcastTo ⟨2, ![a, H]⟩ (shapeCast ⟨2, ![1, H]⟩ b1 hs1) hb1))
            (broadcast ⟨2, ![a, H]⟩ (Scalar.ofBits (F := Ideal) .f32 0x00000000#32)))
          w2 (constant (F := Ideal) ⟨2, ![a, O]⟩ .f32 0x00000000#32))
        (broadcastTo ⟨2, ![a, O]⟩ (shapeCast ⟨2, ![1, O]⟩ b2 hs2) hb2) (ix2 p q)
      = out x w1 (fun h => b1 (ix2 (0 : Fin 1) h)) w2 (fun o => b2 (ix2 (0 : Fin 1) o)) p q := by
  rw [affine_rows_apply]
  unfold out hidden
  refine congrArg (· + b2 (ix2 (0 : Fin 1) q)) (Finset.sum_congr rfl fun h _ => ?_)
  rw [relu_rows_apply]

/-! ## Columns form -/

/-- One affine layer at `(p, q)`: row `p` of the weights against column `q` of the activations, plus the bias's entry `p`. -/
theorem affine_cols_apply {a K b : ℕ} (wf : DotDims.WF ⟨2, ![a, K]⟩ ⟨2, ![K, b]⟩ ⟨2, ![a, b]⟩ [1] [0] [0] [1] [] [])
    (w : FVec Ideal ⟨2, ![a, K]⟩ .f32) (r : FVec Ideal ⟨2, ![K, b]⟩ .f32) (bias : FVec Ideal ⟨2, ![a, 1]⟩ .f32)
    (hs : (⟨2, ![a, 1]⟩ : Shape).ShapeCasts ⟨2, ![a, 1]⟩) (hb : (⟨2, ![a, 1]⟩ : Shape).Broadcasts ⟨2, ![a, b]⟩)
    (p : Fin a) (q : Fin b) :
    addf (matmul (matDot wf) none w r (constant (F := Ideal) ⟨2, ![a, b]⟩ .f32 0x00000000#32))
        (broadcastTo ⟨2, ![a, b]⟩ (shapeCast ⟨2, ![a, 1]⟩ bias hs) hb) (ix2 p q)
      = (∑ k : Fin K, w (ix2 p k) * r (ix2 k q)) + bias (ix2 p (0 : Fin 1)) := by
  rw [addf_apply, shapeCast_self, broadcastTo_a1_ab_apply]
  exact congrArg (· + bias (ix2 p (0 : Fin 1))) (matmul_plain_zero_apply wf none w r p q)

/-- The rectified layer at `(p, q)`. -/
theorem relu_cols_apply {a K b : ℕ} (wf : DotDims.WF ⟨2, ![a, K]⟩ ⟨2, ![K, b]⟩ ⟨2, ![a, b]⟩ [1] [0] [0] [1] [] [])
    (w : FVec Ideal ⟨2, ![a, K]⟩ .f32) (r : FVec Ideal ⟨2, ![K, b]⟩ .f32) (bias : FVec Ideal ⟨2, ![a, 1]⟩ .f32)
    (hs : (⟨2, ![a, 1]⟩ : Shape).ShapeCasts ⟨2, ![a, 1]⟩) (hb : (⟨2, ![a, 1]⟩ : Shape).Broadcasts ⟨2, ![a, b]⟩)
    (p : Fin a) (q : Fin b) :
    maximumf (addf (matmul (matDot wf) none w r (constant (F := Ideal) ⟨2, ![a, b]⟩ .f32 0x00000000#32))
          (broadcastTo ⟨2, ![a, b]⟩ (shapeCast ⟨2, ![a, 1]⟩ bias hs) hb))
        (broadcast ⟨2, ![a, b]⟩ (Scalar.ofBits (F := Ideal) .f32 0x00000000#32)) (ix2 p q)
      = max ((∑ k : Fin K, w (ix2 p k) * r (ix2 k q)) + bias (ix2 p (0 : Fin 1))) 0 := by
  rw [maximumf_apply, affine_cols_apply]
  exact congrArg (max _) Ideal.ofBits_zero_f32

/-- Both layers at `(o, r)`: the perceptron's output `o` of column `r`, in the transposed form. -/
theorem mlp_cols_apply {K H O b : ℕ}
    (wf1 : DotDims.WF ⟨2, ![H, K]⟩ ⟨2, ![K, b]⟩ ⟨2, ![H, b]⟩ [1] [0] [0] [1] [] [])
    (wf2 : DotDims.WF ⟨2, ![O, H]⟩ ⟨2, ![H, b]⟩ ⟨2, ![O, b]⟩ [1] [0] [0] [1] [] [])
    (xT : FVec Ideal ⟨2, ![K, b]⟩ .f32) (w1 : FVec Ideal ⟨2, ![H, K]⟩ .f32) (b1 : FVec Ideal ⟨2, ![H, 1]⟩ .f32)
    (w2 : FVec Ideal ⟨2, ![O, H]⟩ .f32) (b2 : FVec Ideal ⟨2, ![O, 1]⟩ .f32)
    (hsx : (⟨2, ![K, b]⟩ : Shape).ShapeCasts ⟨2, ![K, b]⟩)
    (hs1 : (⟨2, ![H, 1]⟩ : Shape).ShapeCasts ⟨2, ![H, 1]⟩) (hb1 : (⟨2, ![H, 1]⟩ : Shape).Broadcasts ⟨2, ![H, b]⟩)
    (hs2 : (⟨2, ![O, 1]⟩ : Shape).ShapeCasts ⟨2, ![O, 1]⟩) (hb2 : (⟨2, ![O, 1]⟩ : Shape).Broadcasts ⟨2, ![O, b]⟩)
    (o : Fin O) (r : Fin b) :
    addf (matmul (matDot wf2) none w2
          (maximumf (addf (matmul (matDot wf1) none w1 (shapeCast ⟨2, ![K, b]⟩ xT hsx)
                (constant (F := Ideal) ⟨2, ![H, b]⟩ .f32 0x00000000#32))
              (broadcastTo ⟨2, ![H, b]⟩ (shapeCast ⟨2, ![H, 1]⟩ b1 hs1) hb1))
            (broadcast ⟨2, ![H, b]⟩ (Scalar.ofBits (F := Ideal) .f32 0x00000000#32)))
          (constant (F := Ideal) ⟨2, ![O, b]⟩ .f32 0x00000000#32))
        (broadcastTo ⟨2, ![O, b]⟩ (shapeCast ⟨2, ![O, 1]⟩ b2 hs2) hb2) (ix2 o r)
      = outT xT w1 (fun h => b1 (ix2 h (0 : Fin 1))) w2 (fun o => b2 (ix2 o (0 : Fin 1))) o r := by
  rw [affine_cols_apply]
  unfold outT
  refine congrArg (· + b2 (ix2 o (0 : Fin 1))) (Finset.sum_congr rfl fun h _ => ?_)
  rw [relu_cols_apply, shapeCast_self]

end Cert.Mlp

end
-- ==== Proof.KernelValue.lean ====
/-
  What the kernel's result array holds after its run, at the extended reals.

  The kernel walks the batch in eight blocks of 1024 rows. At each block it holds the two weight matrices and the two
  biases (each bias reshaped by the host to one row) whole, and stores the block's result in two halves of 512 rows:
  each half is both layers of the perceptron applied to the half's rows. So every entry `(r, o)` of the block the body
  leaves is output `o` of the block's row `r`; block `t`'s row `r` is row `1024 · t + r` of the batch, the eight blocks
  cover the result, and the result array is the perceptron of the whole batch.
-/
import proofs.«117204_g2000403444849452_pallasbulk_686_14_alg».proof.Proof.Gen.KernelIdeal.Value
import proofs.«117204_g2000403444849452_pallasbulk_686_14_alg».proof.Proof.MlpLayers
import Idealize.ShloMosaic.Lib.StableHlo.Run
import Idealize.ShloMosaic.Lib.ValueLayout

noncomputable section

namespace Cert.KernelIdeal.MlpValue

open Cert.KernelIdeal Cert.KernelIdeal.Gen Idealize.ShloMosaic Idealize.ShloMosaic.TcCoe Idealize.SL.Sem
open Idealize.ShloMosaic.ValueIdx
open Idealize.ShloMosaic.Pipeline (Dat)

/-! ## A half block's stored value -/

/-- The first half's stored value at `(p, q)`: output `q` of the half's row `p`. -/
theorem pay3_apply (v0 v1 : Vec Ideal S1024x1024 .f32) (v2 v4 : Vec Ideal S1x1024 .f32) (v6 : Vec Ideal S512x1024 .f32)
    (p : Fin 512) (q : Fin 1024) :
    k0_pay3 v0 v1 v2 v4 v6 (ix2 p q)
      = Cert.Mlp.out v6 v0 (fun h => v2 (ix2 (0 : Fin 1) h)) v1 (fun o => v4 (ix2 (0 : Fin 1) o)) p q := by
  unfold k0_pay3 k0_pay1 k0_pay2
  exact Cert.Mlp.mlp_rows_apply _ _ v6 v0 v2 v1 v4 _ _ _ _ p q

/-- The second half's likewise. -/
theorem pay4_apply (v0 v1 : Vec Ideal S1024x1024 .f32) (v2 v4 : Vec Ideal S1x1024 .f32) (v16 : Vec Ideal S512x1024 .f32)
    (p : Fin 512) (q : Fin 1024) :
    k0_pay4 v0 v1 v2 v4 v16 (ix2 p q)
      = Cert.Mlp.out v16 v0 (fun h => v2 (ix2 (0 : Fin 1) h)) v1 (fun o => v4 (ix2 (0 : Fin 1) o)) p q := by
  unfold k0_pay4 k0_pay1 k0_pay2
  exact Cert.Mlp.mlp_rows_apply _ _ v16 v0 v2 v1 v4 _ _ _ _ p q

/-! ## The block the body leaves -/

theorem hz : (![0, 0] : Fin 2 → Nat) = fun _ => 0 := funext fun a => by fin_cases a <;> rfl

/-- Row `p` of the first half is row `p` of the block, -/
theorem emb_lo (x : S512x1024.Idx) :
    r0_2.emb x = ix2 (⟨(x 0).val, by have h : (x 0).val < 512 := (x 0).isLt; omega⟩ : Fin 1024) (x 1) := by
  funext a
  match a with
  | ⟨0, _⟩ => exact Fin.ext (show 0 + 1 * (x 0).val = (x 0).val by rw [Nat.one_mul, Nat.zero_add])
  | ⟨1, _⟩ => exact Fin.ext (show 0 + 1 * (x 1).val = (x 1).val by rw [Nat.one_mul, Nat.zero_add])

/-- and row `p` of the second half is row `512 + p`. -/
theorem emb_hi (x : S512x1024.Idx) :
    r0_3.emb x = ix2 (⟨512 + (x 0).val, by have h : (x 0).val < 512 := (x 0).isLt; omega⟩ : Fin 1024) (x 1) := by
  funext a
  match a with
  | ⟨0, _⟩ => exact Fin.ext (show 512 + 1 * (x 0).val = 512 + (x 0).val by rw [Nat.one_mul])
  | ⟨1, _⟩ => exact Fin.ext (show 0 + 1 * (x 1).val = (x 1).val by rw [Nat.one_mul, Nat.zero_add])

/-- The first half's stored value is the block's perceptron on the half's rows: an output entry reads its own row only. -/
theorem piece_lo (x0 x1 : Vec Ideal S1024x1024 .f32) (x2 : Vec Ideal S1x1024 .f32) (x3 : Vec Ideal S1024x1024 .f32)
    (x4 : Vec Ideal S1x1024 .f32) (x : S512x1024.Idx) :
    k0_pay3 x1 x3 x2 x4 (View.ld x0 r0_2) x
      = Cert.Mlp.out x0 x1 (fun h => x2 (ix2 (0 : Fin 1) h)) x3 (fun o => x4 (ix2 (0 : Fin 1) o))
          ((r0_2.emb x) 0) ((r0_2.emb x) 1) := by
  obtain ⟨p, q, rfl⟩ : ∃ (p : Fin 512) (q : Fin 1024), x = ix2 p q := ⟨x 0, x 1, eq_ix2 x⟩
  have hp : p.val < 1024 := by have := p.isLt; omega
  rw [pay3_apply, emb_lo]
  exact Cert.Mlp.out_congr_row (View.ld x0 r0_2) x0 x1 _ x3 _ p (⟨p.val, hp⟩ : Fin 1024)
    (fun f => (congrArg x0 (emb_lo (ix2 p f)) : View.ld x0 r0_2 (ix2 p f) = x0 (ix2 (⟨p.val, hp⟩ : Fin 1024) f))) q

/-- The second half's likewise. -/
theorem piece_hi (x0 x1 : Vec Ideal S1024x1024 .f32) (x2 : Vec Ideal S1x1024 .f32) (x3 : Vec Ideal S1024x1024 .f32)
    (x4 : Vec Ideal S1x1024 .f32) (x : S512x1024.Idx) :
    k0_pay4 x1 x3 x2 x4 (View.ld x0 r0_3) x
      = Cert.Mlp.out x0 x1 (fun h => x2 (ix2 (0 : Fin 1) h)) x3 (fun o => x4 (ix2 (0 : Fin 1) o))
          ((r0_3.emb x) 0) ((r0_3.emb x) 1) := by
  obtain ⟨p, q, rfl⟩ : ∃ (p : Fin 512) (q : Fin 1024), x = ix2 p q := ⟨x 0, x 1, eq_ix2 x⟩
  have hp : 512 + p.val < 1024 := by have := p.isLt; omega
  rw [pay4_apply, emb_hi]
  exact Cert.Mlp.out_congr_row (View.ld x0 r0_3) x0 x1 _ x3 _ p (⟨512 + p.val, hp⟩ : Fin 1024)
    (fun f => (congrArg x0 (emb_hi (ix2 p f)) : View.ld x0 r0_3 (ix2 p f) = x0 (ix2 (⟨512 + p.val, hp⟩ : Fin 1024) f))) q

/-- What the body leaves in the output block, from the input blocks: entry `(r, o)` is output `o` of the block's row `r`.
    The two halves are pieces of that one function, and they cover the block. -/
theorem out0_5_apply (x0 x1 : Vec Ideal S1024x1024 .f32) (x2 : Vec Ideal S1x1024 .f32) (x3 : Vec Ideal S1024x1024 .f32)
    (x4 : Vec Ideal S1x1024 .f32) (y : S1024x1024.Idx) :
    out0_5 x0 x1 x2 x3 x4 y
      = Cert.Mlp.out x0 x1 (fun h => x2 (ix2 (0 : Fin 1) h)) x3 (fun o => x4 (ix2 (0 : Fin 1) o)) (y 0) (y 1) := by
  unfold out0_5
  simp only [View.ld_unit_zero (S := S1024x1024) hz, View.ld_unit_zero (S := S1x1024) hz]
  refine View.canon_apply_of_pieces (Val := Elt Ideal) (S := S1024x1024) (e := .f32)
    (fun y : S1024x1024.Idx =>
      Cert.Mlp.out x0 x1 (fun h => x2 (ix2 (0 : Fin 1) h)) x3 (fun o => x4 (ix2 (0 : Fin 1) o)) (y 0) (y 1))
    _ ?_ y (cover0_5 _ _ y)
  intro pc hpc x
  rcases List.mem_cons.mp hpc with rfl | hpc
  · exact piece_hi x0 x1 x2 x3 x4 x
  · rcases List.mem_cons.mp hpc with rfl | hpc
    · exact piece_lo x0 x1 x2 x3 x4 x
    · exact absurd hpc (List.not_mem_nil)

/-! ## The blocks at a grid point -/

/-- The index maps, decided over the eight points: the batch's block and the result's block move with the point
    along the rows; the weights and the biases stay whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (m : (ℓ : Loc nD τ sig) → Buf (Elt Ideal) ℓ) (ρ : Dev nD → PrngReg)

/-- Row `p` of the batch's block at point `t` is row `1024 · t + p` of the batch. -/
theorem blk_x (c : Dev nD) (t : Fin cfg0.N) (p f : Fin 1024) (hp : t.val * 1024 + p.val < 8192) :
    iblk m c 0 t (ix2 p f)
      = (V m c main_arg0 : S8192x1024.Idx → EReal) (ix2 (⟨t.val * 1024 + p.val, hp⟩ : Fin 8192) f) := by
  obtain ⟨e00, e01, -⟩ := idx_facts t
  show V m c main_arg0 (((cfg0.win 0).blk t).view.emb (ix2 p f)) = _
  refine congrArg (V m c main_arg0) (funext fun a => Fin.ext ?_)
  match a with
  | ⟨0, _⟩ =>
    show win0_0.index t (0 : Fin 2) * 1024 + 1 * p.val = t.val * 1024 + p.val
    rw [e00, Nat.one_mul]
  | ⟨1, _⟩ =>
    show win0_0.index t (1 : Fin 2) * 1024 + 1 * f.val = f.val
    rw [e01]; omega

/-- The first layer's weights are held whole at every point, -/
theorem blk_w1 (c : Dev nD) (t : Fin cfg0.N) : (iblk m c 1 t : S1024x1024.Idx → EReal) = V m c main_arg1 := by
  obtain ⟨-, -, e10, e11, -⟩ := idx_facts t
  funext y
  show V m c main_arg1 (((cfg0.win 1).blk t).view.emb y) = V m c main_arg1 y
  refine congrArg (V m c main_arg1) (funext fun a => Fin.ext ?_)
  match a with
  | ⟨0, _⟩ =>
    show win0_1.index t (0 : Fin 2) * 1024 + 1 * (y 0).val = (y 0).val
    rw [e10]; omega
  | ⟨1, _⟩ =>
    show win0_1.index t (1 : Fin 2) * 1024 + 1 * (y 1).val = (y 1).val
    rw [e11]; omega

/-- its bias row, -/
theorem blk_b1 (c : Dev nD) (t : Fin cfg0.N) : (iblk m c 2 t : S1x1024.Idx → EReal) = V m c main_v0 := by
  obtain ⟨-, -, -, -, e20, e21, -⟩ := idx_facts t
  funext y
  show V m c main_v0 (((cfg0.win 2).blk t).view.emb y) = V m c main_v0 y
  refine congrArg (V m c main_v0) (funext fun a => Fin.ext ?_)
  match a with
  | ⟨0, _⟩ =>
    show win0_2.index t (0 : Fin 2) * 1 + 1 * (y 0).val = (y 0).val
    rw [e20]; omega
  | ⟨1, _⟩ =>
    show win0_2.index t (1 : Fin 2) * 1024 + 1 * (y 1).val = (y 1).val
    rw [e21]; omega

/-- the second layer's weights, -/
theorem blk_w2 (c : Dev nD) (t : Fin cfg0.N) : (iblk m c 3 t : S1024x1024.Idx → EReal) = V m c main_arg3 := by
  obtain ⟨-, -, -, -, -, -, e30, e31, -⟩ := idx_facts t
  funext y
  show V m c main_arg3 (((cfg0.win 3).blk t).view.emb y) = V m c main_arg3 y
  refine congrArg (V m c main_arg3) (funext fun a => Fin.ext ?_)
  match a with
  | ⟨0, _⟩ =>
    show win0_3.index t (0 : Fin 2) * 1024 + 1 * (y 0).val = (y 0).val
    rw [e30]; omega
  | ⟨1, _⟩ =>
    show win0_3.index t (1 : Fin 2) * 1024 + 1 * (y 1).val = (y 1).val
    rw [e31]; omega

/-- and its bias row. -/
theorem blk_b2 (c : Dev nD) (t : Fin cfg0.N) : (iblk m c 4 t : S1x1024.Idx → EReal) = V m c main_v1 := by
  obtain ⟨-, -, -, -, -, -, -, -, e40, e41, -⟩ := idx_facts t
  funext y
  show V m c main_v1 (((cfg0.win 4).blk t).view.emb y) = V m c main_v1 y
  refine congrArg (V m c main_v1) (funext fun a => Fin.ext ?_)
  match a with
  | ⟨0, _⟩ =>
    show win0_4.index t (0 : Fin 2) * 1 + 1 * (y 0).val = (y 0).val
    rw [e40]; omega
  | ⟨1, _⟩ =>
    show win0_4.index t (1 : Fin 2) * 1024 + 1 * (y 1).val = (y 1).val
    rw [e41]; omega

/-! ## The result array -/

/-- The perceptron of the arrays as the kernel's region finds them: the batch and the weights as launched, each bias as
    the one row the host made of it. -/
def G (c : Dev nD) : S8192x1024.Idx → EReal := fun i =>
  Cert.Mlp.out (V m c main_arg0 : S8192x1024.Idx → EReal) (V m c main_arg1 : S1024x1024.Idx → EReal)
    (fun h => (V m c main_v0 : S1x1024.Idx → EReal) (ix2 (0 : Fin 1) h)) (V m c main_arg3 : S1024x1024.Idx → EReal)
    (fun o => (V m c main_v1 : S1x1024.Idx → EReal) (ix2 (0 : Fin 1) o)) (i 0) (i 1)

/-- What the body leaves at point `t`, entry by entry, is `G` where the result's block sits in the result. -/
theorem block_eq (c : Dev nD) (t : Fin cfg0.N) (j : S1024x1024.Idx) :
    out0_5 (iblk m c 0 t) (iblk m c 1 t) (iblk m c 2 t) (iblk m c 3 t) (iblk m c 4 t) j
      = G m c (((cfg0.win 5).blk t).view.emb j) := by
  have ht : t.val < grid0.N := t.isLt
  rw [N_0] at ht
  obtain ⟨-, -, -, -, -, -, -, -, -, -, e50, e51⟩ := idx_facts t
  have hj0 : (j 0).val < 1024 := (j 0).isLt
  have hrow : t.val * 1024 + (j 0).val < 8192 := by omega
  have hemb : ((cfg0.win 5).blk t).view.emb j = ix2 (⟨t.val * 1024 + (j 0).val, hrow⟩ : Fin 8192) (j 1) := by
    funext a; apply Fin.ext
    match a with
    | ⟨0, _⟩ =>
      show win0_5.index t (0 : Fin 2) * 1024 + 1 * (j 0).val = t.val * 1024 + (j 0).val
      rw [e50, Nat.one_mul]
    | ⟨1, _⟩ =>
      show win0_5.index t (1 : Fin 2) * 1024 + 1 * (j 1).val = (j 1).val
      rw [e51]; omega
  rw [hemb, out0_5_apply]
  unfold G
  exact Cert.Mlp.out_congr _ _ _ _ _ _ _ _ _ _ (j 0) (⟨t.val * 1024 + (j 0).val, hrow⟩ : Fin 8192) (j 1) (j 1)
    (fun f => blk_x m c t (j 0) f hrow) (blk_w1 m c t)
    (funext fun h => congrFun (blk_b1 m c t) (ix2 (0 : Fin 1) h)) (blk_w2 m c t)
    (funext fun o => congrFun (blk_b2 m c t) (ix2 (0 : Fin 1) o)) rfl

/-- So what point `t` writes back is block `t` of `G`. -/
theorem flushed_eq (c : Dev nD) (t : Fin cfg0.N) :
    (dats m 0 c).flushed 5 t = ((cfg0.win 5).blk t).view.read (Elt Ideal) (G m c) := by
  rw [Cert.KernelIdeal.Value.flushed5]
  funext j
  show out0_5 (iblk m c 0 t) (iblk m c 1 t) (iblk m c 2 t) (iblk m c 3 t) (iblk m c 4 t) j
      = G m c (((cfg0.win 5).blk t).view.emb j)
  exact block_eq m c t j

/-- An entry of the result is in point `t`'s block iff its row is one of the block's 1024 rows. -/
theorem mem_blk (t : Fin cfg0.N) (i : S8192x1024.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v2).slice (win0_5.rect t)).set ↔ _
  rw [View.set_slice_whole, Rect.mem_set_unit]
  exact Iff.rfl

/-- Row `r` of the result is written back at point `r / 1024`: the eight blocks cover the result. -/
theorem cover (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : (i 0).val / 1024 < grid0.N := by rw [N_0]; omega
  obtain ⟨-, -, -, -, -, -, -, -, -, -, e50, e51⟩ := idx_facts ⟨(i 0).val / 1024, hN⟩
  refine ⟨⟨(i 0).val / 1024, hN⟩, flush0_5 _, ?_⟩
  rw [mem_blk]
  intro a
  match a with
  | ⟨0, _⟩ =>
    show win0_5.index ⟨(i 0).val / 1024, hN⟩ (0 : Fin 2) * 1024 ≤ (i 0).val
      ∧ (i 0).val < win0_5.index ⟨(i 0).val / 1024, hN⟩ (0 : Fin 2) * 1024 + 1024
    rw [e50]
    show (i 0).val / 1024 * 1024 ≤ (i 0).val ∧ (i 0).val < (i 0).val / 1024 * 1024 + 1024
    omega
  | ⟨1, _⟩ =>
    show win0_5.index ⟨(i 0).val / 1024, hN⟩ (1 : Fin 2) * 1024 ≤ (i 1).val
      ∧ (i 1).val < win0_5.index ⟨(i 0).val / 1024, hN⟩ (1 : Fin 2) * 1024 + 1024
    rw [e51]; omega

/-- The result array after the run. -/
theorem final (c : Dev nD) : (dats m 0 c).arrAt 5 cfg0.N = G m c :=
  (dats m 0 c).arrAt_eq_of_cover 5 (G m c) (fun t _ => flushed_eq m c t) cover

/-! ## The biases as the region finds them, and the run -/

/-- The host reshapes the first bias to one row before the kernel is launched. -/
theorem V_main_v0 (c : Dev nD) :
    (V m c main_v0 : S1x1024.Idx → EReal)
      = shapeCast S1x1024 (m ((c : Thread nD τ).loc main_arg2) : S1024.Idx → EReal) shapeCasts_S1024_S1x1024 := by
  dsimp only [Gen.V, Gen.hostOps0]; after_results; rfl

/-- And the second. -/
theorem V_main_v1 (c : Dev nD) :
    (V m c main_v1 : S1x1024.Idx → EReal)
      = shapeCast S1x1024 (m ((c : Thread nD τ).loc main_arg4) : S1024.Idx → EReal) shapeCasts_S1024_S1x1024 := by
  dsimp only [Gen.V, Gen.hostOps0]; after_results; rfl

/-- So `G` is the perceptron of the argument arrays. -/
theorem G_eq (c : Dev nD) :
    G m c = Cert.Mlp.net (m ((c : Thread nD τ).loc main_arg0) : S8192x1024.Idx → EReal)
      (m ((c : Thread nD τ).loc main_arg1) : S1024x1024.Idx → EReal) (m ((c : Thread nD τ).loc main_arg2) : S1024.Idx → EReal)
      (m ((c : Thread nD τ).loc main_arg3) : S1024x1024.Idx → EReal) (m ((c : Thread nD τ).loc main_arg4) : S1024.Idx → EReal) := by
  funext i
  unfold G Cert.Mlp.net
  refine Cert.Mlp.out_congr _ _ _ _ _ _ _ _ _ _ (i 0) (i 0) (i 1) (i 1)
    (fun f => congrFun (V_main_arg0 m c) _) (V_main_arg1 m c) (funext fun h => ?_) (V_main_arg3 m c) (funext fun o => ?_) rfl
  · rw [V_main_v0]; exact shapeCast_a_1a_apply _ _ (0 : Fin 1) h
  · rw [V_main_v1]; exact shapeCast_a_1a_apply _ _ (0 : Fin 1) o

/-- The kernel's run: the result array ends holding the perceptron of the argument arrays, which end unchanged. -/
theorem run : θ_run defs (onTc (τ := τ) (main (F := Ideal))) ⟨m, fun _ => 0, ρ⟩ fun r => ∀ c : Dev nD,
      r.2.mem ((c : Thread nD τ).loc main_v2)
        = Cert.Mlp.net (m ((c : Thread nD τ).loc main_arg0) : S8192x1024.Idx → EReal)
            (m ((c : Thread nD τ).loc main_arg1) : S1024x1024.Idx → EReal) (m ((c : Thread nD τ).loc main_arg2) : S1024.Idx → EReal)
            (m ((c : Thread nD τ).loc main_arg3) : S1024x1024.Idx → EReal) (m ((c : Thread nD τ).loc main_arg4) : S1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (G_eq m c)), (h c).2⟩)
    (Cert.KernelIdeal.Value.run_blocks m ρ)

end Cert.KernelIdeal.MlpValue

end
-- ==== Proof.RefValue.lean ====
/-
  What the reference's result array holds after its run, at the extended reals.

  The reference works on the transposed batch: the host transposes the batch so that the batch runs along the columns,
  reshapes each bias to one column, and launches a kernel that walks the columns in four blocks of 2048. At each block
  the kernel holds the weights and the bias columns whole and stores both layers in the transposed form: entry `(o, r)`
  of the block it leaves is output `o` of the block's column `r`. Block `t`'s column `r` is column `2048 · t + r`, the
  four blocks cover the transposed result, and the host transposes it back. Column `b` of the transposed batch is row
  `b` of the batch, and the transposed form is the perceptron with every product's factors exchanged, so the result
  is the perceptron of the batch.
-/
import proofs.«117204_g2000403444849452_pallasbulk_686_14_alg».proof.Proof.Gen.ReferenceIdeal.Frame
import proofs.«117204_g2000403444849452_pallasbulk_686_14_alg».proof.Proof.MlpLayers
import Idealize.ShloMosaic.Lib.StableHlo.Run
import Idealize.ShloMosaic.Lib.ValueLayout
import Idealize.ShloMosaic.Lib.Pipeline.Value

noncomputable section

namespace Cert.ReferenceIdeal.MlpValue

open Cert.ReferenceIdeal Cert.ReferenceIdeal.Gen Idealize.ShloMosaic Idealize.ShloMosaic.TcCoe Idealize.SL.Sem
open Idealize.ShloMosaic.ValueIdx
open Idealize.ShloMosaic.Pipeline (Dat)

/-! ## The block the body leaves -/

/-- The stored value at `(o, r)`: output `o` of the block's column `r`, in the transposed form. -/
theorem pay1_apply (v0 : Vec Ideal S1024x2048 .f32) (v2 : Vec Ideal S1024x1024 .f32) (v4 : Vec Ideal S1024x1 .f32)
    (v10 : Vec Ideal S1024x1024 .f32) (v12 : Vec Ideal S1024x1 .f32) (o : Fin 1024) (r : Fin 2048) :
    k0_pay1 v0 v2 v4 v10 v12 (ix2 o r)
      = Cert.Mlp.outT v0 v2 (fun h => v4 (ix2 h (0 : Fin 1))) v10 (fun o => v12 (ix2 o (0 : Fin 1))) o r := by
  unfold k0_pay1
  exact Cert.Mlp.mlp_cols_apply _ _ v0 v2 v4 v10 v12 _ _ _ _ _ o r

theorem hz : (![0, 0] : Fin 2 → Nat) = fun _ => 0 := funext fun a => by fin_cases a <;> rfl

/-- The body loads its blocks whole and stores the block whole: what it leaves is the stored value. -/
theorem out0_5_apply (x0 : Vec Ideal S1024x2048 .f32) (x1 : Vec Ideal S1024x1024 .f32) (x2 : Vec Ideal S1024x1 .f32)
    (x3 : Vec Ideal S1024x1024 .f32) (x4 : Vec Ideal S1024x1 .f32) (y : S1024x2048.Idx) :
    out0_5 x0 x1 x2 x3 x4 y
      = Cert.Mlp.outT x0 x1 (fun h => x2 (ix2 h (0 : Fin 1))) x3 (fun o => x4 (ix2 o (0 : Fin 1))) (y 0) (y 1) := by
  obtain ⟨o, r, rfl⟩ : ∃ (o : Fin 1024) (r : Fin 2048), y = ix2 o r := ⟨y 0, y 1, eq_ix2 y⟩
  unfold out0_5
  rw [View.canon_unit_zero hz]
  simp only [View.ld_unit_zero (S := S1024x2048) hz, View.ld_unit_zero (S := S1024x1024) hz,
    View.ld_unit_zero (S := S1024x1) hz]
  exact pay1_apply x0 x1 x2 x3 x4 o r

/-! ## The blocks at a grid point -/

/-- The index maps, decided over the four points: the transposed batch's block and the transposed result's block move
    with the point along the columns; the weights and the bias columns stay whole. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

variable (m : (ℓ : Loc nD τ sig) → Buf (Elt Ideal) ℓ) (ρ : Dev nD → PrngReg)

/-- Column `r` of the transposed batch's block at point `t` is column `2048 · t + r` of the transposed batch. -/
theorem blk_x (c : Dev nD) (t : Fin cfg0.N) (f : Fin 1024) (r : Fin 2048) (hr : t.val * 2048 + r.val < 8192) :
    iblk m c 0 t (ix2 f r)
      = (V m c main_v0 : S1024x8192.Idx → EReal) (ix2 f (⟨t.val * 2048 + r.val, hr⟩ : Fin 8192)) := by
  obtain ⟨e00, e01, -⟩ := idx_facts t
  show V m c main_v0 (((cfg0.win 0).blk t).view.emb (ix2 f r)) = _
  refine congrArg (V m c main_v0) (funext fun a => Fin.ext ?_)
  match a with
  | ⟨0, _⟩ =>
    show win0_0.index t (0 : Fin 2) * 1024 + 1 * f.val = f.val
    rw [e00]; omega
  | ⟨1, _⟩ =>
    show win0_0.index t (1 : Fin 2) * 2048 + 1 * r.val = t.val * 2048 + r.val
    rw [e01, Nat.one_mul]

/-- The first layer's weights are held whole at every point, -/
theorem blk_w1 (c : Dev nD) (t : Fin cfg0.N) : (iblk m c 1 t : S1024x1024.Idx → EReal) = V m c main_arg1 := by
  obtain ⟨-, -, e10, e11, -⟩ := idx_facts t
  funext y
  show V m c main_arg1 (((cfg0.win 1).blk t).view.emb y) = V m c main_arg1 y
  refine congrArg (V m c main_arg1) (funext fun a => Fin.ext ?_)
  match a with
  | ⟨0, _⟩ =>
    show win0_1.index t (0 : Fin 2) * 1024 + 1 * (y 0).val = (y 0).val
    rw [e10]; omega
  | ⟨1, _⟩ =>
    show win0_1.index t (1 : Fin 2) * 1024 + 1 * (y 1).val = (y 1).val
    rw [e11]; omega

/-- its bias column, -/
theorem blk_b1 (c : Dev nD) (t : Fin cfg0.N) : (iblk m c 2 t : S1024x1.Idx → EReal) = V m c main_v1 := by
  obtain ⟨-, -, -, -, e20, e21, -⟩ := idx_facts t
  funext y
  show V m c main_v1 (((cfg0.win 2).blk t).view.emb y) = V m c main_v1 y
  refine congrArg (V m c main_v1) (funext fun a => Fin.ext ?_)
  match a with
  | ⟨0, _⟩ =>
    show win0_2.index t (0 : Fin 2) * 1024 + 1 * (y 0).val = (y 0).val
    rw [e20]; omega
  | ⟨1, _⟩ =>
    show win0_2.index t (1 : Fin 2) * 1 + 1 * (y 1).val = (y 1).val
    rw [e21]; omega

/-- the second layer's weights, -/
theorem blk_w2 (c : Dev nD) (t : Fin cfg0.N) : (iblk m c 3 t : S1024x1024.Idx → EReal) = V m c main_arg3 := by
  obtain ⟨-, -, -, -, -, -, e30, e31, -⟩ := idx_facts t
  funext y
  show V m c main_arg3 (((cfg0.win 3).blk t).view.emb y) = V m c main_arg3 y
  refine congrArg (V m c main_arg3) (funext fun a => Fin.ext ?_)
  match a with
  | ⟨0, _⟩ =>
    show win0_3.index t (0 : Fin 2) * 1024 + 1 * (y 0).val = (y 0).val
    rw [e30]; omega
  | ⟨1, _⟩ =>
    show win0_3.index t (1 : Fin 2) * 1024 + 1 * (y 1).val = (y 1).val
    rw [e31]; omega

/-- and its bias column. -/
theorem blk_b2 (c : Dev nD) (t : Fin cfg0.N) : (iblk m c 4 t : S1024x1.Idx → EReal) = V m c main_v2 := by
  obtain ⟨-, -, -, -, -, -, -, -, e40, e41, -⟩ := idx_facts t
  funext y
  show V m c main_v2 (((cfg0.win 4).blk t).view.emb y) = V m c main_v2 y
  refine congrArg (V m c main_v2) (funext fun a => Fin.ext ?_)
  match a with
  | ⟨0, _⟩ =>
    show win0_4.index t (0 : Fin 2) * 1024 + 1 * (y 0).val = (y 0).val
    rw [e40]; omega
  | ⟨1, _⟩ =>
    show win0_4.index t (1 : Fin 2) * 1 + 1 * (y 1).val = (y 1).val
    rw [e41]; omega

/-! ## The transposed result array -/

/-- The transposed form of the perceptron of the arrays as the reference's region finds them: the transposed batch, the
    weights as launched, each bias as the one column the host made of it. -/
def G (c : Dev nD) : S1024x8192.Idx → EReal := fun i =>
  Cert.Mlp.outT (V m c main_v0 : S1024x8192.Idx → EReal) (V m c main_arg1 : S1024x1024.Idx → EReal)
    (fun h => (V m c main_v1 : S1024x1.Idx → EReal) (ix2 h (0 : Fin 1))) (V m c main_arg3 : S1024x1024.Idx → EReal)
    (fun o => (V m c main_v2 : S1024x1.Idx → EReal) (ix2 o (0 : Fin 1))) (i 0) (i 1)

/-- What the body leaves at point `t`, entry by entry, is `G` where the block sits in the transposed result. -/
theorem block_eq (c : Dev nD) (t : Fin cfg0.N) (j : S1024x2048.Idx) :
    out0_5 (iblk m c 0 t) (iblk m c 1 t) (iblk m c 2 t) (iblk m c 3 t) (iblk m c 4 t) j
      = G m c (((cfg0.win 5).blk t).view.emb j) := by
  have ht : t.val < grid0.N := t.isLt
  rw [N_0] at ht
  obtain ⟨-, -, -, -, -, -, -, -, -, -, e50, e51⟩ := idx_facts t
  have hj1 : (j 1).val < 2048 := (j 1).isLt
  have hcol : t.val * 2048 + (j 1).val < 8192 := by omega
  have hemb : ((cfg0.win 5).blk t).view.emb j = ix2 (j 0) (⟨t.val * 2048 + (j 1).val, hcol⟩ : Fin 8192) := by
    funext a; apply Fin.ext
    match a with
    | ⟨0, _⟩ =>
      show win0_5.index t (0 : Fin 2) * 1024 + 1 * (j 0).val = (j 0).val
      rw [e50]; omega
    | ⟨1, _⟩ =>
      show win0_5.index t (1 : Fin 2) * 2048 + 1 * (j 1).val = t.val * 2048 + (j 1).val
      rw [e51, Nat.one_mul]
  rw [hemb, out0_5_apply]
  unfold G
  exact Cert.Mlp.outT_congr _ _ _ _ _ _ _ _ _ _ (j 0) (j 0) (j 1) (⟨t.val * 2048 + (j 1).val, hcol⟩ : Fin 8192)
    (fun f => blk_x m c t f (j 1) hcol) (blk_w1 m c t)
    (funext fun h => congrFun (blk_b1 m c t) (ix2 h (0 : Fin 1))) (blk_w2 m c t)
    (funext fun o => congrFun (blk_b2 m c t) (ix2 o (0 : Fin 1))) rfl

/-- So what point `t` writes back is block `t` of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  funext j
  show out0_5 (iblk m c 0 t) (iblk m c 1 t) (iblk m c 2 t) (iblk m c 3 t) (iblk m c 4 t) j
      = G m c (((cfg0.win 5).blk t).view.emb j)
  exact block_eq m c t j

/-- An entry of the transposed result is in point `t`'s block iff its column is one of the block's 2048 columns. -/
theorem mem_blk (t : Fin cfg0.N) (i : S1024x8192.Idx) :
    i ∈ ((cfg0.win 5).blk t).view.set ↔ ∀ a : Fin 2, win0_5.index t a * S1024x2048.size a ≤ (i a).val
      ∧ (i a).val < win0_5.index t a * S1024x2048.size a + S1024x2048.size a := by
  show i ∈ ((View.whole main_v3).slice (win0_5.rect t)).set ↔ _
  rw [View.set_slice_whole, Rect.mem_set_unit]
  exact Iff.rfl

/-- Column `b` of the transposed result is written back at point `b / 2048`: the four blocks cover it. -/
theorem cover (i : S1024x8192.Idx) :
    ∃ t : Fin cfg0.N, (cfg0.win 5).flush t = true ∧ i ∈ ((cfg0.win 5).blk t).view.set := by
  have hi0 : (i 0).val < 1024 := (i 0).isLt
  have hi1 : (i 1).val < 8192 := (i 1).isLt
  have hN : (i 1).val / 2048 < grid0.N := by rw [N_0]; omega
  obtain ⟨-, -, -, -, -, -, -, -, -, -, e50, e51⟩ := idx_facts ⟨(i 1).val / 2048, hN⟩
  refine ⟨⟨(i 1).val / 2048, hN⟩, flush0_5 _, ?_⟩
  rw [mem_blk]
  intro a
  match a with
  | ⟨0, _⟩ =>
    show win0_5.index ⟨(i 1).val / 2048, hN⟩ (0 : Fin 2) * 1024 ≤ (i 0).val
      ∧ (i 0).val < win0_5.index ⟨(i 1).val / 2048, hN⟩ (0 : Fin 2) * 1024 + 1024
    rw [e50]; omega
  | ⟨1, _⟩ =>
    show win0_5.index ⟨(i 1).val / 2048, hN⟩ (1 : Fin 2) * 2048 ≤ (i 1).val
      ∧ (i 1).val < win0_5.index ⟨(i 1).val / 2048, hN⟩ (1 : Fin 2) * 2048 + 2048
    rw [e51]
    show (i 1).val / 2048 * 2048 ≤ (i 1).val ∧ (i 1).val < (i 1).val / 2048 * 2048 + 2048
    omega

/-- The transposed result array after the kernel's run. -/
theorem final (c : Dev nD) : (dats m 0 c).arrAt 5 cfg0.N = G m c :=
  (dats m 0 c).arrAt_eq_of_cover 5 (G m c) (fun t _ => flushed_eq m c t) cover

/-! ## The host's operations around the kernel -/

/-- The host transposes the batch before the kernel is launched, -/
theorem V_main_v0 (c : Dev nD) :
    (V m c main_v0 : S1024x8192.Idx → EReal)
      = transpose S1024x8192 [1, 0] (m ((c : Thread nD τ).loc main_arg0) : S8192x1024.Idx → EReal)
          transposes_S8192x1024_S1024x8192_1_0 := by
  show StableHlo.after hostOps0 (fun b => m (c, b)) (Proc.devRef .tc main_v0) = _
  after_results

/-- reshapes the first bias to one column, -/
theorem V_main_v1 (c : Dev nD) :
    (V m c main_v1 : S1024x1.Idx → EReal)
      = shapeCast S1024x1 (m ((c : Thread nD τ).loc main_arg2) : S1024.Idx → EReal) shapeCasts_S1024_S1024x1 := by
  show StableHlo.after hostOps0 (fun b => m (c, b)) (Proc.devRef .tc main_v1) = _
  after_results; rfl

/-- and the second. -/
theorem V_main_v2 (c : Dev nD) :
    (V m c main_v2 : S1024x1.Idx → EReal)
      = shapeCast S1024x1 (m ((c : Thread nD τ).loc main_arg4) : S1024.Idx → EReal) shapeCasts_S1024_S1024x1 := by
  show StableHlo.after hostOps0 (fun b => m (c, b)) (Proc.devRef .tc main_v2) = _
  after_results; rfl

/-- After the kernel the host transposes the transposed result back. -/
theorem result_eq (c : Dev nD) :
    Pipeline.afterTail₀ cfgs (dats m) 0 (V0 m) [hostOps1] c main_v4
      = transpose S8192x1024 [1, 0] (G m c) transposes_S1024x8192_S8192x1024_1_0 := by
  unfold Pipeline.afterTail₀
  show StableHlo.after hostOps1 _ (Proc.devRef .tc main_v4) = _
  after_results
  refine congrArg (fun X => transpose S8192x1024 [1, 0] X transposes_S1024x8192_S8192x1024_1_0) ?_
  exact (Pipeline.withArrays_arr spec0 launch0.win.arr_inj c _ _ 5).trans (final m c)

/-- Entry `(o, b)` of the transposed result is output `o` of batch row `b`: column `b` of the transposed batch is row
    `b` of the batch, the bias columns are the biases, and the transposed form is the perceptron's entry. -/
theorem G_apply (c : Dev nD) (o : Fin 1024) (b : Fin 8192) :
    G m c (ix2 o b)
      = Cert.Mlp.out (m ((c : Thread nD τ).loc main_arg0) : S8192x1024.Idx → EReal)
          (m ((c : Thread nD τ).loc main_arg1) : S1024x1024.Idx → EReal)
          (fun h => (m ((c : Thread nD τ).loc main_arg2) : S1024.Idx → EReal) (ix1 h))
          (m ((c : Thread nD τ).loc main_arg3) : S1024x1024.Idx → EReal)
          (fun o => (m ((c : Thread nD τ).loc main_arg4) : S1024.Idx → EReal) (ix1 o)) b o := by
  unfold G
  refine (Cert.Mlp.outT_eq_out _ (m ((c : Thread nD τ).loc main_arg0) : S8192x1024.Idx → EReal) _ _ _ _ b b
    (fun f => ?_) o).trans ?_
  · rw [V_main_v0]; exact transpose_ix2_apply _ _ f b
  · refine Cert.Mlp.out_congr _ _ _ _ _ _ _ _ _ _ b b o o (fun _ => rfl) (V_main_arg1 m c) (funext fun h => ?_)
      (V_main_arg3 m c) (funext fun o' => ?_) rfl
    · rw [V_main_v1]; exact Cert.Lib.shapeCast_a_a1_apply _ _ h (0 : Fin 1)
    · rw [V_main_v2]; exact Cert.Lib.shapeCast_a_a1_apply _ _ o' (0 : Fin 1)

/-- So the result, transposed back, is the perceptron of the argument arrays. -/
theorem transposed_eq (c : Dev nD) :
    transpose S8192x1024 [1, 0] (G m c) transposes_S1024x8192_S8192x1024_1_0
      = Cert.Mlp.net (m ((c : Thread nD τ).loc main_arg0) : S8192x1024.Idx → EReal)
          (m ((c : Thread nD τ).loc main_arg1) : S1024x1024.Idx → EReal) (m ((c : Thread nD τ).loc main_arg2) : S1024.Idx → EReal)
          (m ((c : Thread nD τ).loc main_arg3) : S1024x1024.Idx → EReal) (m ((c : Thread nD τ).loc main_arg4) : S1024.Idx → EReal) := by
  funext i
  obtain ⟨b, o, rfl⟩ : ∃ (b : Fin 8192) (o : Fin 1024), i = ix2 b o := ⟨i 0, i 1, eq_ix2 i⟩
  rw [transpose_ix2_apply]
  exact G_apply m c o b

/-- The reference's run: the result array ends holding the perceptron of the argument arrays, which end unchanged (the
    batch and the biases are read by the host only and no later line writes them; the weights are staged and never
    written back). -/
theorem run : θ_run defs (onTc (τ := τ) (main (F := Ideal))) ⟨m, fun _ => 0, ρ⟩ fun r => ∀ c : Dev nD,
      r.2.mem ((c : Thread nD τ).loc main_v4)
        = Cert.Mlp.net (m ((c : Thread nD τ).loc main_arg0) : S8192x1024.Idx → EReal)
            (m ((c : Thread nD τ).loc main_arg1) : S1024x1024.Idx → EReal) (m ((c : Thread nD τ).loc main_arg2) : S1024.Idx → EReal)
            (m ((c : Thread nD τ).loc main_arg3) : S1024x1024.Idx → EReal) (m ((c : Thread nD τ).loc main_arg4) : S1024.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v4 (Pipeline.mem_restRefs_of main_v4 (by decide) (by decide))).trans
        ((result_eq m c).trans (transposed_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.ReferenceIdeal.MlpValue

end
-- ==== Proof.lean ====
/-
  The kernel and its reference compute one function on the extended reals: a two-layer perceptron.

  For a batch `x` of 8192 rows of 1024 features, weights `w1`, `w2` (one row per unit) and biases `b1`, `b2`, both programs
  return, at `(r, o)`,
      ∑ h, max (∑ f, x (r, f) · w1 (h, f) + b1 h) 0 · w2 (o, h) + b2 o.
  The kernel takes the batch in eight blocks of 1024 rows, each stored in two halves, every layer a product of rows with
  the rows of its weight matrix plus the bias as one row. The reference transposes the batch, takes it in four blocks of
  2048 columns, every layer a product of the weight matrix with the columns plus the bias as one column, and transposes
  the result back. At the extended reals a matrix product is the plain sum of the products over the contracted index, so
  the two differ in the order of each product's factors alone, and multiplication commutes; no entry is assumed finite.
  Each program's run is its generated frame run with the result array named (`KernelValue.lean`, `RefValue.lean`); the
  idealized kernel is the kernel's own text read at the extended reals, so nothing is owed for the idealization.
-/
import proofs.«117204_g2000403444849452_pallasbulk_686_14_alg».proof.Defs
import proofs.«117204_g2000403444849452_pallasbulk_686_14_alg».proof.Proof.Gen.Kernel
import proofs.«117204_g2000403444849452_pallasbulk_686_14_alg».proof.Proof.Gen.Kernel.Frame
import proofs.«117204_g2000403444849452_pallasbulk_686_14_alg».proof.Proof.Gen.KernelIdeal
import proofs.«117204_g2000403444849452_pallasbulk_686_14_alg».proof.Proof.Gen.KernelIdeal.Frame
import proofs.«117204_g2000403444849452_pallasbulk_686_14_alg».proof.Proof.Gen.KernelIdeal.Value
import proofs.«117204_g2000403444849452_pallasbulk_686_14_alg».proof.Proof.Gen.ReferenceIdeal
import proofs.«117204_g2000403444849452_pallasbulk_686_14_alg».proof.Proof.Gen.ReferenceIdeal.Frame
import proofs.«117204_g2000403444849452_pallasbulk_686_14_alg».proof.Proof.Gen.Pre_finite_inputs
import proofs.«117204_g2000403444849452_pallasbulk_686_14_alg».proof.Proof.KernelValue
import proofs.«117204_g2000403444849452_pallasbulk_686_14_alg».proof.Proof.RefValue

noncomputable section

namespace Cert.Proof

open Idealize.ShloMosaic Idealize.SL.Sem

/-- The three programs run to the end without a fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Gen.frame m ρ

/-- The idealization rewrote no operation. -/
theorem preserves : Cert.preserves_Kernel_KernelIdeal := trivial

/-- From memories that agree on the arguments both programs end with the perceptron of the arguments in their result
    arrays. -/
theorem algebraic : Cert.algebraic_KernelIdeal_ReferenceIdeal := by
  intro m ρ m' ρ' _ hagree
  refine ⟨_, Cert.KernelIdeal.MlpValue.run m ρ, ?_⟩
  refine (θ_run Cert.ReferenceIdeal.defs _ _).mono (fun r h c => ⟨(h c).1.trans ?_, (h c).2⟩)
    (Cert.ReferenceIdeal.MlpValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
